-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x16x1024x1024 : Shape := ⟨4, ![4, 16, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel

variable [Facts]

def fn {F : FTy → Type} [FloatOps F] (main_arg0 : FVec F S4x16x1024x64 .f32) (main_arg1 : FVec F S4x16x1024x64 .f32) (main_arg2 : FVec F S4x16x1024x64 .f32) (main_arg3 : IVec S4x16x1024x1024 1) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  main_v13
-- ==== Kernel.lean ====
abbrev S4x16x1024x64 : Shape := ⟨4, ![4, 16, 1024, 64]⟩
abbrev S4x16x1024x1024 : Shape := ⟨4, ![4, 16, 1024, 1024]⟩
abbrev S64x1024x64 : Shape := ⟨3, ![64, 1024, 64]⟩
abbrev S64x1024x1024 : Shape := ⟨3, ![64, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1x256x64 : Shape := ⟨3, ![1, 256, 64]⟩
abbrev S256x64 : Shape := ⟨2, ![256, 64]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1024, .i1⟩
  | .hbm, ⟨4, _⟩ => ⟨S64x1024x64, .f32⟩
  | .hbm, ⟨5, _⟩ => ⟨S64x1024x64, .f32⟩
  | .hbm, ⟨6, _⟩ => ⟨S64x1024x64, .f32⟩
  | .hbm, ⟨7, _⟩ => ⟨S64x1024x1024, .i1⟩
  | .hbm, ⟨8, _⟩ => ⟨S64x1024x1024, .i32⟩
  | .hbm, ⟨9, _⟩ => ⟨S64x1024x64, .f32⟩
  | .hbm, ⟨10, _⟩ => ⟨S64x1024x1024, .f32⟩
  | .hbm, ⟨11, _⟩ => ⟨S4x16x1024x64, .f32⟩
  | .hbm, ⟨12, _⟩ => ⟨S4x16x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x1024, .f32⟩
  | .local _ .vmem, ⟨11, _⟩ => ⟨S1x1024x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c256_i32 : BitVec 32 := 256#32
  let v6 : BitVec 32 := Scalar.muli c0_i32 c256_i32
  v6
def k0_off1 (c0_i32 : BitVec 32) : Fin 3 → Nat :=
  let c0_5 : Index := 0#32
  let c256_i32 : BitVec 32 := 256#32
  let v6 : BitVec 32 := Scalar.muli c0_i32 c256_i32
  let v7 : BitVec 32 := v6
  let v8 : Index := Scalar.indexCast v7
  let c0_6 : Index := 0#32
  ![0, v8.toNat, 0]
def k0_off2 (c0_i32 : BitVec 32) : Fin 3 → Nat :=
  let c0_7 : Index := 0#32
  let c256_i32 : BitVec 32 := 256#32
  let v6 : BitVec 32 := Scalar.muli c0_i32 c256_i32
  let v7 : BitVec 32 := v6
  let v14 : Index := Scalar.indexCast v7
  let c0_8 : Index := 0#32
  ![0, v14.toNat, 0]
def k0_mult2 : BitVec 32 :=
  let c1_i32 : BitVec 32 := 1#32
  let c256_i32_19 : BitVec 32 := 256#32
  let v40 : BitVec 32 := Scalar.muli c1_i32 c256_i32_19
  v40
def k0_mult3 : BitVec 32 :=
  let c2_i32 : BitVec 32 := 2#32
  let c256_i32_35 : BitVec 32 := 256#32
  let v74 : BitVec 32 := Scalar.muli c2_i32 c256_i32_35
  v74
def k0_mult4 : BitVec 32 :=
  let c3_i32 : BitVec 32 := 3#32
  let c256_i32_51 : BitVec 32 := 256#32
  let v108 : BitVec 32 := Scalar.muli c3_i32 c256_i32_51
  v108
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x16x1024x64_S64x1024x64 : S4x16x1024x64.ShapeCasts S64x1024x64
  shapeCasts_S4x16x1024x1024_S64x1024x1024 : S4x16x1024x1024.ShapeCasts S64x1024x1024
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  h_S1x256x64 : 0 < S1x256x64.numel
  shapeCasts_S1x256x64_S256x64 : S1x256x64.ShapeCasts S256x64
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  shapeCasts_S256x64_S1x256x64 : S256x64.ShapeCasts S1x256x64
  shapeCasts_S64x1024x64_S4x16x1024x64 : S64x1024x64.ShapeCasts S4x16x1024x64
  shapeCasts_S64x1024x1024_S4x16x1024x1024 : S64x1024x1024.ShapeCasts S4x16x1024x1024
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x64.size a ≤ S1x1024x64.size a
  k0_off2_inb : ∀ (r : Fin 4), ∀ a, (k0_off2 (BitVec.ofNat 32 r.val)) a + S1x256x1024.size a ≤ S1x1024x1024.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .i32 = 32 ∨ (Rect.block (s := S64x1024x1024) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x1024x64.size a
  hwx0_4 : ∀ i : grid0.Coords, EltTy.bits .f32 = 32 ∨ (Rect.block (s := S64x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1024, .i1⟩
  | .hbm, ⟨4, _⟩ => ⟨S4x16x1024x1024, .f32⟩
  | .hbm, ⟨5, _⟩ => ⟨S_, .f32⟩
  | .hbm, ⟨6, _⟩ => ⟨S4x16x1024x1024, .f32⟩
  | .hbm, ⟨7, _⟩ => ⟨S4x16x1024x1024, .f32⟩
  | .hbm, ⟨8, _⟩ => ⟨S_, .f32⟩
  | .hbm, ⟨9, _⟩ => ⟨S4x16x1024x1024, .f32⟩
  | .hbm, ⟨10, _⟩ => ⟨S4x16x1024x1024, .f32⟩
  | .hbm, ⟨11, _⟩ => ⟨S_, .f32⟩
  | .hbm, ⟨12, _⟩ => ⟨S4x16x1024, .f32⟩
  | .hbm, ⟨13, _⟩ => ⟨S_, .f32⟩
  | .hbm, ⟨14, _⟩ => ⟨S4x16x1024, .f32⟩
  | .hbm, ⟨15, _⟩ => ⟨S4x16x1024, .f32⟩
  | .hbm, ⟨16, _⟩ => ⟨S4x16x1024x1, .f32⟩
  | .hbm, ⟨17, _⟩ => ⟨S4x16x1024x1024, .f32⟩
  | .hbm, ⟨18, _⟩ => ⟨S4x16x1024x1024, .f32⟩
  | .hbm, ⟨19, _⟩ => ⟨S4x16x1024x1024, .f32⟩
  | .hbm, ⟨20, _⟩ => ⟨S_, .f32⟩
  | .hbm, ⟨21, _⟩ => ⟨S4x16x1024, .f32⟩
  | .hbm, ⟨22, _⟩ => ⟨S4x16x1024x1, .f32⟩
  | .hbm, ⟨23, _⟩ => ⟨S4x16x1024x1024, .f32⟩
  | .hbm, ⟨24, _⟩ => ⟨S4x16x1024x1024, .f32⟩
  | .hbm, ⟨25, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.RowMath.lean ====
/-
  Scaled dot-product attention over ONE row of queries, as plain functions on the extended reals.

  For a query row q (d entries), keys K (n rows of d entries), a mask of n one-bit words and values V (n rows of
  e entries):
    score k   = the fill value where the mask is set, else  ∑ over d of (q d · 1/8) · K k d
    attn k    = exp (score k − max score) / ∑ over k' of exp (score k' − max score)
    ctx v     = ∑ over k of attn k · V k v
  The maximum is the fold of max from −∞ over the row.  The one law of this file: a nonnegative real factor moves
  out of a finite sum of extended reals (no finiteness of the terms is needed, because multiplying +∞ and −∞ by a
  nonnegative real keeps their signs), so scaling the query by 1/8 before the product is dividing the product by 8.
-/
import Idealize.ShloMosaic.PureOps.Ideal
import Idealize.ShloMosaic.PureOps.Ideal.Laws
import Idealize.ShloMosaic.Lib.ValueIdx

noncomputable section

namespace Cert.RowMath

open Idealize.ShloMosaic

/-- The word 0xFF800000 is −∞, the bottom of the extended reals. -/
theorem negInf_eq : Ideal.ofBits .f32 0xFF800000#32 = (⊥ : EReal) := by simp [Ideal.ofBits, Ideal.ieee]

/-- The word 0x3E000000 is the real 1/8. -/
theorem eighth_eq : Ideal.ofBits .f32 0x3E000000#32 = (((1 / 8 : ℝ)) : EReal) := by
  simp [Ideal.ofBits, Ideal.ieee, -EReal.coe_mul]; norm_num

/-- The word 0x41000000 is the real 8. -/
theorem eight_eq : Ideal.ofBits .f32 0x41000000#32 = (((8 : ℝ)) : EReal) := by
  simp [Ideal.ofBits, Ideal.ieee, -EReal.coe_mul]; norm_num

/-- A nonnegative real factor moves out of a finite sum of extended reals. -/
theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- Scaling the query by 1/8 before the product is dividing the product by 8, on all extended reals. -/
theorem scaled_dot {d : Nat} (q k : Fin d → EReal) :
    ∑ j, (q j * Ideal.ofBits .f32 0x3E000000#32) * k j
      = Ideal.div (∑ j, q j * k j) (Ideal.ofBits .f32 0x41000000#32) := by
  rw [eighth_eq, eight_eq, Ideal.div_coe (by norm_num : (8 : ℝ) ≠ 0), ← sum_mul_coe _ _ (by norm_num)]
  refine Finset.sum_congr rfl fun j _ => ?_
  rw [mul_assoc, mul_comm (((1 / 8 : ℝ)) : EReal) (k j), ← mul_assoc]

/-- A row's masked scores: the fill value where the mask word is set, else the scaled product with key k. -/
def scoreRow {d n : Nat} (q : Fin d → EReal) (K : Fin n → Fin d → EReal) (msk : Fin n → BitVec 1) : Fin n → EReal :=
  fun k => Scalar.select (msk k) (Ideal.ofBits .f32 0xCE6E6B28#32) (∑ j, (q j * Ideal.ofBits .f32 0x3E000000#32) * K k j)

/-- A row's maximum, folded from −∞. -/
def rowMax {n : Nat} (s : Fin n → EReal) : EReal :=
  (Finset.univ : Finset (Fin n)).fold max (Ideal.ofBits .f32 0xFF800000#32) s

/-- The softmax of a row. -/
def softmaxRow {n : Nat} (s : Fin n → EReal) : Fin n → EReal :=
  fun k => Ideal.div (Ideal.exp (s k - rowMax s)) (∑ k', Ideal.exp (s k' - rowMax s))

/-- A row of attention weights. -/
def attnRow {d n : Nat} (q : Fin d → EReal) (K : Fin n → Fin d → EReal) (msk : Fin n → BitVec 1) : Fin n → EReal :=
  softmaxRow (scoreRow q K msk)

/-- A row of the context: the weights against the values. -/
def ctxRow {n e : Nat} (a : Fin n → EReal) (V : Fin n → Fin e → EReal) : Fin e → EReal :=
  fun v => ∑ k, a k * V k v

/-- Taking the maximum once more against −∞ changes nothing. -/
theorem max_negInf (x : EReal) : max (Ideal.ofBits .f32 0xFF800000#32) x = x := by
  rw [negInf_eq]; exact max_eq_right bot_le

end Cert.RowMath

end
-- ==== Proof.LibTransposedDot.lean ====
/-
  A matrix product whose right operand is contracted on its LAST axis, read at an entry, at the ideal instance.

  For dimension numbers that contract the left operand's columns with the right operand's columns and have no batch
  axis (`DotDims.transposedRhs m k n`: an m×k matrix against an n×k one, "a · bᵀ"), the kernel's product into a zero
  accumulator and the host's `dot_general` are, at entry (p, j), the sum over q < k of l (p, q) · r (j, q) on the
  extended reals.  Stated for any record equal to that one, so that a printed record (a definition of its own) can
  be cited by `rfl`.  General lemma: any extents, any float formats of the operands.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    (p, j) written by coordinates: the left operand at (p, q), the right one at (j, q). -/
theorem sum_transposedRhs (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry (p, j). -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposedRhs l r p j

/-- The host's `dot_general` with the same dimension numbers, at entry (p, j). -/
theorem dotGeneral_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    Host.dotGeneral D prec l r (ix2 p j) = ∑ q : Fin k, l (ix2 p q) * r (ix2 j q) := by
  subst hD
  simp only [Host.dotGeneral]
  rw [Ideal.dotGeneral_apply]
  exact sum_transposedRhs l r p j

end Cert.TransposedDot

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.ChunkValue.lean ====
/-
  One chunk of 256 query rows, as the kernel's body computes it, read entry by entry at the ideal instance.

  The body handles the 1024 query rows of a (batch, head) block in four chunks of 256 rows; the four chunks are the
  same arithmetic on different rows.  For a chunk with query rows `qc`, the block's keys `kb`, values `vb` and the
  chunk's mask words `mc`:
    * the scores are  select (mask ≠ 0) fill ((qc · 1/8) · kbᵀ): entry (r, k) is `scoreRow` of row r at k;
    * the row maximum is a fold of max from −∞, the row sum a finite sum, each put back along the row;
    * the weights are exp (score − max) / sum: entry (r, k) is `attnRow` of row r at k;
    * the context is weights · vb: entry (r, v) is `ctxRow` of row r's weights at v.
  Changes of float format are the identity here.
-/
import proofs.«133450_j24026047054463_2_alg».proof.Proof.Gen.KernelIdeal.Skeleton
import proofs.«133450_j24026047054463_2_alg».proof.Proof.RowMath
import proofs.«133450_j24026047054463_2_alg».proof.Proof.LibTransposedDot
import proofs.«133450_j24026047054463_2_alg».proof.Proof.LibPlainDot
import proofs.«133450_j24026047054463_2_alg».proof.Proof.LibColBroadcast
import proofs.«133450_j24026047054463_2_alg».proof.Proof.LibMatrixLayout
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Chunk

open Idealize.ShloMosaic Idealize.ShloMosaic.ValueIdx Cert.KernelIdeal Cert.KernelIdeal.Facts₀ Cert.RowMath

/-- A vector of 256 row values put back along the 1024 columns. -/
def alongRow (v : FVec Ideal S256 .f32) : FVec Ideal S256x1024 .f32 :=
  broadcastTo S256x1024 (shapeCast S256x1 v shapeCasts_S256_S256x1) broadcasts_S256x1_S256x1024

theorem alongRow_apply (v : FVec Ideal S256 .f32) (r : Fin 256) (k : Fin 1024) : alongRow v (ix2 r k) = v (ix1 r) :=
  (Cert.LibColBroadcast.broadcastTo_a1_ab_apply _ broadcasts_S256x1_S256x1024 r k).trans
    (Cert.LibMatrixLayout.shapeCast_a_a1_apply v shapeCasts_S256_S256x1 r 0)

/-- The row maxima of a block of scores. -/
def maxOf (s : FVec Ideal S256x1024 .f32) : FVec Ideal S256 .f32 :=
  multiReduction .maximumf [1] S256 s 0xFF800000#32 reduces_S256x1024_S256 (.inl rfl) rfl

/-- The row sums of a block. -/
def sumOf (s : FVec Ideal S256x1024 .f32) : FVec Ideal S256 .f32 :=
  multiReduction .add [1] S256 s 0x00000000#32 reduces_S256x1024_S256 (.inl rfl) rfl

/-- Row r of a block, inserted at column k, is entry (r, k). -/
theorem lift_row (r : Fin 256) (k : Fin 1024) : reduces_S256x1024_S256.lift (ix1 r) k = ix2 r k :=
  funext fun a => Fin.ext (by match a with | ⟨0, _⟩ => rfl | ⟨1, _⟩ => rfl)

theorem maxOf_apply (s : FVec Ideal S256x1024 .f32) (r : Fin 256) :
    maxOf s (ix1 r) = rowMax (fun k : Fin 1024 => s (ix2 r k)) := by
  unfold maxOf
  refine (Ideal.multiReduction_maximumf_single s _ reduces_S256x1024_S256 (.inl rfl) rfl (ix1 r)).trans ?_
  unfold rowMax
  have e : (s ∘ reduces_S256x1024_S256.lift (ix1 r)) = fun k : Fin 1024 => s (ix2 r k) :=
    funext fun k => congrArg s (lift_row r k)
  rw [e]; rfl

theorem sumOf_apply (s : FVec Ideal S256x1024 .f32) (r : Fin 256) :
    sumOf s (ix1 r) = ∑ k : Fin 1024, s (ix2 r k) := by
  unfold sumOf
  refine (Ideal.multiReduction_add_single s _ reduces_S256x1024_S256 (.inl rfl) rfl (ix1 r)).trans ?_
  exact Finset.sum_congr rfl fun k _ => congrArg s (lift_row r k)

/-- The body's softmax of a block of scores, operation by operation. -/
def softmaxVec (s : FVec Ideal S256x1024 .f32) : FVec Ideal S256x1024 .f32 :=
  divf (exp (subf s (alongRow (maxOf s)))) (alongRow (sumOf (exp (subf s (alongRow (maxOf s))))))

theorem softmaxVec_apply (s : FVec Ideal S256x1024 .f32) (r : Fin 256) (k : Fin 1024) :
    softmaxVec s (ix2 r k) = softmaxRow (fun k' : Fin 1024 => s (ix2 r k')) k := by
  have hx : ∀ k' : Fin 1024, exp (subf s (alongRow (maxOf s))) (ix2 r k')
      = Ideal.exp (s (ix2 r k') - rowMax (fun k'' : Fin 1024 => s (ix2 r k''))) := fun k' => by
    show Ideal.exp (s (ix2 r k') - alongRow (maxOf s) (ix2 r k')) = _
    rw [alongRow_apply, maxOf_apply]
  show Ideal.div (exp (subf s (alongRow (maxOf s))) (ix2 r k)) (alongRow (sumOf (exp (subf s (alongRow (maxOf s))))) (ix2 r k)) = _
  rw [alongRow_apply, sumOf_apply, hx k]
  unfold softmaxRow
  exact congrArg _ (Finset.sum_congr rfl fun k' _ => hx k')

/-- The chunk's mask words as the comparison reads them: set where the 32-bit word is not zero. -/
def maskRow (mc : Vec Ideal S1x256x1024 .i32) (r : Fin 256) : Fin 1024 → BitVec 1 :=
  fun k => IntOp.cmpi .ne (mc (ix3 (0 : Fin 1) r k)) 0#32

/-- The body's scores of a chunk, operation by operation. -/
def scoresVec (kb : FVec Ideal S1024x64 .bf16) (qc : Vec Ideal S1x256x64 .f32) (mc : Vec Ideal S1x256x1024 .i32) :
    FVec Ideal S256x1024 .f32 :=
  select (cmpi .ne (shapeCast S256x1024 mc shapeCasts_S1x256x1024_S256x1024) (constantI S256x1024 32 0#32))
    (broadcast S256x1024 (Scalar.ofBits .f32 0xCE6E6B28#32))
    (matmul dot_S256x64_S1024x64_S256x1024_1_1_0_0_n_n none
      (truncf .bf16 (mulf (shapeCast S256x64 qc shapeCasts_S1x256x64_S256x64) (broadcast S256x64 (Scalar.ofBits .f32 0x3E000000#32)))
        bitsLt_bf16_f32)
      kb (constant S256x1024 .f32 0x00000000#32))

theorem scoresVec_apply (kb : FVec Ideal S1024x64 .bf16) (qc : Vec Ideal S1x256x64 .f32) (mc : Vec Ideal S1x256x1024 .i32)
    (r : Fin 256) (k : Fin 1024) :
    scoresVec kb qc mc (ix2 r k)
      = scoreRow (fun d : Fin 64 => qc (ix3 (0 : Fin 1) r d)) (fun (k' : Fin 1024) (d : Fin 64) => kb (ix2 k' d)) (maskRow mc r) k := by
  unfold scoresVec scoreRow maskRow
  show Scalar.select (IntOp.cmpi .ne (shapeCast S256x1024 mc shapeCasts_S1x256x1024_S256x1024 (ix2 r k)) 0#32)
      (Ideal.ofBits .f32 0xCE6E6B28#32) (matmul _ _ _ _ _ (ix2 r k)) = _
  rw [shapeCast_1ab_ab_apply]
  refine congrArg (Scalar.select _ _) ?_
  refine (Cert.TransposedDot.matmul_zero_ix2 dot_S256x64_S1024x64_S256x1024_1_1_0_0_n_n rfl none _ kb r k).trans ?_
  refine Finset.sum_congr rfl fun d _ => ?_
  show shapeCast S256x64 qc shapeCasts_S1x256x64_S256x64 (ix2 r d) * Ideal.ofBits .f32 0x3E000000#32 * kb (ix2 k d) = _
  rw [shapeCast_1ab_ab_apply]

/-- The chunk's attention weights are the softmax of its scores: the printed payload, named. -/
theorem pay1_eq (kb : FVec Ideal S1024x64 .bf16) (qc : Vec Ideal S1x256x64 .f32) (mc : Vec Ideal S1x256x1024 .i32) :
    Gen.k0_pay1 kb qc mc = softmaxVec (scoresVec kb qc mc) := rfl

/-- Entry (r, k) of the chunk's weights is row r's attention weight on key k. -/
theorem pay1_apply (kb : FVec Ideal S1024x64 .bf16) (qc : Vec Ideal S1x256x64 .f32) (mc : Vec Ideal S1x256x1024 .i32)
    (r : Fin 256) (k : Fin 1024) :
    Gen.k0_pay1 kb qc mc (ix2 r k)
      = attnRow (fun d : Fin 64 => qc (ix3 (0 : Fin 1) r d)) (fun (k' : Fin 1024) (d : Fin 64) => kb (ix2 k' d)) (maskRow mc r) k := by
  rw [pay1_eq, softmaxVec_apply]
  unfold attnRow
  exact congrFun (congrArg softmaxRow (funext fun k' => scoresVec_apply kb qc mc r k')) k

/-- The stored weights: the same values under a leading unit axis. -/
theorem pay2_apply (kb : FVec Ideal S1024x64 .bf16) (qc : Vec Ideal S1x256x64 .f32) (mc : Vec Ideal S1x256x1024 .i32)
    (u : Fin 1) (r : Fin 256) (k : Fin 1024) :
    Gen.k0_pay2 kb qc mc (ix3 u r k)
      = attnRow (fun d : Fin 64 => qc (ix3 (0 : Fin 1) r d)) (fun (k' : Fin 1024) (d : Fin 64) => kb (ix2 k' d)) (maskRow mc r) k := by
  show shapeCast S1x256x1024 (Gen.k0_pay1 kb qc mc) shapeCasts_S256x1024_S1x256x1024 (ix3 u r k) = _
  rw [shapeCast_ab_1ab_apply, pay1_apply]

/-- The stored context: the weights against the block's values, under a leading unit axis. -/
theorem pay3_apply (kb vb : FVec Ideal S1024x64 .bf16) (qc : Vec Ideal S1x256x64 .f32) (mc : Vec Ideal S1x256x1024 .i32)
    (u : Fin 1) (r : Fin 256) (v : Fin 64) :
    Gen.k0_pay3 kb vb qc mc (ix3 u r v)
      = ctxRow (attnRow (fun d : Fin 64 => qc (ix3 (0 : Fin 1) r d)) (fun (k' : Fin 1024) (d : Fin 64) => kb (ix2 k' d)) (maskRow mc r))
          (fun (k' : Fin 1024) (v' : Fin 64) => vb (ix2 k' v')) v := by
  show shapeCast S1x256x64 (matmul dot_S256x1024_S1024x64_S256x64_1_0_0_1_n_n none
      (truncf .bf16 (Gen.k0_pay1 kb qc mc) bitsLt_bf16_f32) vb (constant S256x64 .f32 0x00000000#32)) shapeCasts_S256x64_S1x256x64 (ix3 u r v) = _
  rw [shapeCast_ab_1ab_apply]
  refine (Cert.PlainDot.matmul_zero_ix2 dot_S256x1024_S1024x64_S256x64_1_0_0_1_n_n rfl none _ vb r v).trans ?_
  unfold ctxRow
  refine Finset.sum_congr rfl fun k' _ => ?_
  show Gen.k0_pay1 kb qc mc (ix2 r k') * vb (ix2 k' v) = _
  rw [pay1_apply]

/-- The block's keys (or values) as the body holds them: the staged block without its unit axis. -/
theorem pay4_apply (x : Vec Ideal S1x1024x64 .f32) (k : Fin 1024) (d : Fin 64) :
    Gen.k0_pay4 x (ix2 k d) = x (ix3 (0 : Fin 1) k d) := by
  show shapeCast S1024x64 x shapeCasts_S1x1024x64_S1024x64 (ix2 k d) = _
  rw [shapeCast_1ab_ab_apply]

theorem pay5_apply (x : Vec Ideal S1x1024x64 .f32) (k : Fin 1024) (d : Fin 64) :
    Gen.k0_pay5 x (ix2 k d) = x (ix3 (0 : Fin 1) k d) := by
  show shapeCast S1024x64 x shapeCasts_S1x1024x64_S1024x64 (ix2 k d) = _
  rw [shapeCast_1ab_ab_apply]

/-! The four chunks' payloads are one arithmetic. -/

theorem pay7_eq (v0 : Vec Ideal S1x1024x64 .f32) (qc : Vec Ideal S1x256x64 .f32) (mc : Vec Ideal S1x256x1024 .i32) :
    Gen.k0_pay7 v0 qc mc = Gen.k0_pay2 (Gen.k0_pay4 v0) qc mc := rfl
theorem pay11_eq (kb : FVec Ideal S1024x64 .bf16) (qc : Vec Ideal S1x256x64 .f32) (mc : Vec Ideal S1x256x1024 .i32) :
    Gen.k0_pay11 kb qc mc = Gen.k0_pay2 kb qc mc := rfl
theorem pay14_eq (kb : FVec Ideal S1024x64 .bf16) (qc : Vec Ideal S1x256x64 .f32) (mc : Vec Ideal S1x256x1024 .i32) :
    Gen.k0_pay14 kb qc mc = Gen.k0_pay2 kb qc mc := rfl
theorem pay9_eq (v0 v3 : Vec Ideal S1x1024x64 .f32) (qc : Vec Ideal S1x256x64 .f32) (mc : Vec Ideal S1x256x1024 .i32) :
    Gen.k0_pay9 (Gen.k0_pay8 v0 v3 qc mc) = Gen.k0_pay3 (Gen.k0_pay4 v0) (Gen.k0_pay5 v3) qc mc := rfl
theorem pay12_eq (kb vb : FVec Ideal S1024x64 .bf16) (qc : Vec Ideal S1x256x64 .f32) (mc : Vec Ideal S1x256x1024 .i32) :
    Gen.k0_pay12 kb vb qc mc = Gen.k0_pay3 kb vb qc mc := rfl
theorem pay15_eq (kb vb : FVec Ideal S1024x64 .bf16) (qc : Vec Ideal S1x256x64 .f32) (mc : Vec Ideal S1x256x1024 .i32) :
    Gen.k0_pay15 kb vb qc mc = Gen.k0_pay3 kb vb qc mc := rfl

end Cert.KernelIdeal.Chunk

end
-- ==== Proof.BlockValue.lean ====
/-
  What the body leaves in the two output blocks of a (batch, head) grid point, as functions of the four input blocks.

  The body writes each output block in four pieces of 256 rows (rows 0–255, 256–511, 512–767, 768–1023).  Piece j of the
  weights block holds, at its local row r and column k, the attention weight of query row 256·j + r on key k; piece j
  of the context block holds that row's context.  So every piece is the restriction of ONE function of the block's
  index — `blockAttn` and `blockCtx` below — and the block, read back, is that function.
-/
import proofs.«133450_j24026047054463_2_alg».proof.Proof.Gen.KernelIdeal.Frame
import proofs.«133450_j24026047054463_2_alg».proof.Proof.ChunkValue
import Idealize.ShloMosaic.Lib.Pipeline.Value
import Idealize.ShloMosaic.Lib.Tactic

set_option maxRecDepth 16384

noncomputable section

namespace Cert.KernelIdeal.Block

open Idealize.ShloMosaic Idealize.ShloMosaic.TcCoe Idealize.ShloMosaic.ValueIdx Idealize.SL.Sem
open Cert.KernelIdeal Cert.RowMath Cert.KernelIdeal.Chunk

/-- The mask of query row q, as the body's comparison reads the staged 32-bit words. -/
def maskOf (x3 : Vec Ideal S1x1024x1024 .i32) (q : Fin 1024) : Fin 1024 → BitVec 1 :=
  fun k => IntOp.cmpi .ne (x3 (ix3 (0 : Fin 1) q k)) 0#32

/-- The attention weight of query row q on key k, from the staged query, key and mask blocks. -/
def blockAttn (x0 x1 : Vec Ideal S1x1024x64 .f32) (x3 : Vec Ideal S1x1024x1024 .i32) (q k : Fin 1024) : EReal :=
  attnRow (fun d : Fin 64 => x0 (ix3 (0 : Fin 1) q d)) (fun (k' : Fin 1024) (d : Fin 64) => x1 (ix3 (0 : Fin 1) k' d)) (maskOf x3 q) k

/-- Query row q's context at v, from the staged blocks. -/
def blockCtx (x0 x1 x2 : Vec Ideal S1x1024x64 .f32) (x3 : Vec Ideal S1x1024x1024 .i32) (q : Fin 1024) (v : Fin 64) : EReal :=
  ctxRow (blockAttn x0 x1 x3 q) (fun (k' : Fin 1024) (v' : Fin 64) => x2 (ix3 (0 : Fin 1) k' v')) v

/-- The weights block as a function of its index. -/
def attnBlock (x0 x1 : Vec Ideal S1x1024x64 .f32) (x3 : Vec Ideal S1x1024x1024 .i32) : S1x1024x1024.Idx → EReal :=
  fun y => blockAttn x0 x1 x3 ⟨(y 1).val, (y 1).isLt⟩ ⟨(y 2).val, (y 2).isLt⟩

/-- The context block as a function of its index. -/
def ctxBlock (x0 x1 x2 : Vec Ideal S1x1024x64 .f32) (x3 : Vec Ideal S1x1024x1024 .i32) : S1x1024x64.Idx → EReal :=
  fun y => blockCtx x0 x1 x2 x3 ⟨(y 1).val, (y 1).isLt⟩ ⟨(y 2).val, (y 2).isLt⟩

/-- A load of m whole rows from row o of a [1, n1, n2] block reads, at local (u, r, d), the block at (0, o + r, d). -/
theorem ld_rows {Val : EltTy → Type} {e : EltTy} {n1 n2 m : Nat} (X : (⟨3, ![1, n1, n2]⟩ : Shape).Idx → Val e) (o : Nat)
    (inb : ∀ a, (![0, o, 0] : Fin 3 → Nat) a + (![1, m, n2] : Fin 3 → Nat) a ≤ (⟨3, ![1, n1, n2]⟩ : Shape).size a)
    (u : Fin 1) (r : Fin m) (d : Fin n2) (h : o + r.val < n1) :
    View.ld X (Rect.unit ![0, o, 0] ![1, m, n2] inb) (ix3 u r d) = X (ix3 (0 : Fin 1) ⟨o + r.val, h⟩ d) := by
  refine congrArg X (funext fun a => Fin.ext ?_)
  match a with
  | ⟨0, _⟩ => show 0 + 1 * u.val = 0; omega
  | ⟨1, _⟩ => show o + 1 * r.val = o + r.val; omega
  | ⟨2, _⟩ => show 0 + 1 * d.val = d.val; omega

theorem hz3 : (![0, 0, 0] : Fin 3 → Nat) = fun _ => 0 := funext fun a => by fin_cases a <;> rfl

/-- Piece of the weights block at row offset o: its payload is `attnBlock` on its rectangle. -/
theorem attn_piece (o : Nat) (ho : o + 256 ≤ 1024) (x0 x1 : Vec Ideal S1x1024x64 .f32) (x3 : Vec Ideal S1x1024x1024 .i32)
    (inbk : ∀ a, (![0, 0, 0] : Fin 3 → Nat) a + S1x1024x64.size a ≤ S1x1024x64.size a)
    (inbq : ∀ a, (![0, o, 0] : Fin 3 → Nat) a + (![1, 256, 64] : Fin 3 → Nat) a ≤ S1x1024x64.size a)
    (inbm : ∀ a, (![0, o, 0] : Fin 3 → Nat) a + (![1, 256, 1024] : Fin 3 → Nat) a ≤ S1x1024x1024.size a)
    (x : S1x256x1024.Idx) :
    Gen.k0_pay2 (Gen.k0_pay4 (View.ld x1 (Rect.unit ![0, 0, 0] S1x1024x64.size inbk)))
        (View.ld x0 (Rect.unit ![0, o, 0] ![1, 256, 64] inbq)) (View.ld x3 (Rect.unit ![0, o, 0] ![1, 256, 1024] inbm)) x
      = attnBlock x0 x1 x3 ((Rect.unit (s := S1x1024x1024) ![0, o, 0] ![1, 256, 1024] inbm).emb x) := by
  obtain ⟨u, r, k, rfl⟩ : ∃ (u : Fin 1) (r : Fin 256) (k : Fin 1024), x = ix3 u r k := ⟨x 0, x 1, x 2, eq_ix3 x⟩
  have hr : o + r.val < 1024 := by have := r.isLt; omega
  rw [pay2_apply, View.ld_unit_zero (S := S1x1024x64) hz3]
  unfold attnBlock blockAttn
  have e1 : (⟨((Rect.unit (s := S1x1024x1024) ![0, o, 0] ![1, 256, 1024] inbm).emb (ix3 u r k) 1).val,
      ((Rect.unit (s := S1x1024x1024) ![0, o, 0] ![1, 256, 1024] inbm).emb (ix3 u r k) 1).isLt⟩ : Fin 1024) = ⟨o + r.val, hr⟩ :=
    Fin.ext (by show o + 1 * r.val = o + r.val; omega)
  have e2 : (⟨((Rect.unit (s := S1x1024x1024) ![0, o, 0] ![1, 256, 1024] inbm).emb (ix3 u r k) 2).val,
      ((Rect.unit (s := S1x1024x1024) ![0, o, 0] ![1, 256, 1024] inbm).emb (ix3 u r k) 2).isLt⟩ : Fin 1024) = k :=
    Fin.ext (by show 0 + 1 * k.val = k.val; omega)
  rw [e1, e2]
  have eq : (fun d : Fin 64 => View.ld x0 (Rect.unit ![0, o, 0] ![1, 256, 64] inbq) (ix3 (0 : Fin 1) r d))
      = fun d : Fin 64 => x0 (ix3 (0 : Fin 1) ⟨o + r.val, hr⟩ d) := funext fun d => ld_rows x0 o inbq 0 r d hr
  have ek : (fun (k' : Fin 1024) (d : Fin 64) => Gen.k0_pay4 x1 (ix2 k' d)) = fun (k' : Fin 1024) (d : Fin 64) => x1 (ix3 (0 : Fin 1) k' d) :=
    funext fun k' => funext fun d => pay4_apply x1 k' d
  have em : maskRow (View.ld x3 (Rect.unit ![0, o, 0] ![1, 256, 1024] inbm)) r = maskOf x3 ⟨o + r.val, hr⟩ :=
    funext fun k' => congrArg (fun w => IntOp.cmpi .ne w 0#32) (ld_rows x3 o inbm 0 r k' hr)
  rw [eq, ek, em]

/-- Piece of the context block at row offset o: its payload is `ctxBlock` on its rectangle. -/
theorem ctx_piece (o : Nat) (ho : o + 256 ≤ 1024) (x0 x1 x2 : Vec Ideal S1x1024x64 .f32) (x3 : Vec Ideal S1x1024x1024 .i32)
    (inbk : ∀ a, (![0, 0, 0] : Fin 3 → Nat) a + S1x1024x64.size a ≤ S1x1024x64.size a)
    (inbq : ∀ a, (![0, o, 0] : Fin 3 → Nat) a + (![1, 256, 64] : Fin 3 → Nat) a ≤ S1x1024x64.size a)
    (inbm : ∀ a, (![0, o, 0] : Fin 3 → Nat) a + (![1, 256, 1024] : Fin 3 → Nat) a ≤ S1x1024x1024.size a)
    (x : S1x256x64.Idx) :
    Gen.k0_pay3 (Gen.k0_pay4 (View.ld x1 (Rect.unit ![0, 0, 0] S1x1024x64.size inbk)))
        (Gen.k0_pay5 (View.ld x2 (Rect.unit ![0, 0, 0] S1x1024x64.size inbk)))
        (View.ld x0 (Rect.unit ![0, o, 0] ![1, 256, 64] inbq)) (View.ld x3 (Rect.unit ![0, o, 0] ![1, 256, 1024] inbm)) x
      = ctxBlock x0 x1 x2 x3 ((Rect.unit (s := S1x1024x64) ![0, o, 0] ![1, 256, 64] inbq).emb x) := by
  obtain ⟨u, r, v, rfl⟩ : ∃ (u : Fin 1) (r : Fin 256) (v : Fin 64), x = ix3 u r v := ⟨x 0, x 1, x 2, eq_ix3 x⟩
  have hr : o + r.val < 1024 := by have := r.isLt; omega
  rw [pay3_apply, View.ld_unit_zero (S := S1x1024x64) hz3, View.ld_unit_zero (S := S1x1024x64) hz3]
  unfold ctxBlock blockCtx
  have e1 : (⟨((Rect.unit (s := S1x1024x64) ![0, o, 0] ![1, 256, 64] inbq).emb (ix3 u r v) 1).val,
      ((Rect.unit (s := S1x1024x64) ![0, o, 0] ![1, 256, 64] inbq).emb (ix3 u r v) 1).isLt⟩ : Fin 1024) = ⟨o + r.val, hr⟩ :=
    Fin.ext (by show o + 1 * r.val = o + r.val; omega)
  have e2 : (⟨((Rect.unit (s := S1x1024x64) ![0, o, 0] ![1, 256, 64] inbq).emb (ix3 u r v) 2).val,
      ((Rect.unit (s := S1x1024x64) ![0, o, 0] ![1, 256, 64] inbq).emb (ix3 u r v) 2).isLt⟩ : Fin 64) = v :=
    Fin.ext (by show 0 + 1 * v.val = v.val; omega)
  rw [e1, e2]
  unfold blockAttn
  have eq : (fun d : Fin 64 => View.ld x0 (Rect.unit ![0, o, 0] ![1, 256, 64] inbq) (ix3 (0 : Fin 1) r d))
      = fun d : Fin 64 => x0 (ix3 (0 : Fin 1) ⟨o + r.val, hr⟩ d) := funext fun d => ld_rows x0 o inbq 0 r d hr
  have ek : (fun (k' : Fin 1024) (d : Fin 64) => Gen.k0_pay4 x1 (ix2 k' d)) = fun (k' : Fin 1024) (d : Fin 64) => x1 (ix3 (0 : Fin 1) k' d) :=
    funext fun k' => funext fun d => pay4_apply x1 k' d
  have ev : (fun (k' : Fin 1024) (v' : Fin 64) => Gen.k0_pay5 x2 (ix2 k' v')) = fun (k' : Fin 1024) (v' : Fin 64) => x2 (ix3 (0 : Fin 1) k' v') :=
    funext fun k' => funext fun v' => pay5_apply x2 k' v'
  have em : maskRow (View.ld x3 (Rect.unit ![0, o, 0] ![1, 256, 1024] inbm)) r = maskOf x3 ⟨o + r.val, hr⟩ :=
    funext fun k' => congrArg (fun w => IntOp.cmpi .ne w 0#32) (ld_rows x3 o inbm 0 r k' hr)
  rw [eq, ek, ev, em]

open Cert.KernelIdeal.Gen in
/-- THE WEIGHTS BLOCK: what the body leaves in the second output's staging buffer is `attnBlock` of the input blocks. -/
theorem out5_eq (c : Dev nD) (i : grid0.Coords) (a1 : Memref sig .tc .vmem S1x1024x64 .f32) (h1 : a1.IsWhole)
    (a2 : Memref sig .tc .vmem S1x1024x64 .f32) (h2 : a2.IsWhole) (a3 : Memref sig .tc .vmem S1x1024x64 .f32) (h3 : a3.IsWhole)
    (a4 : Memref sig .tc .vmem S1x1024x1024 .i32) (h4 : a4.IsWhole) (a5 : Memref sig .tc .vmem S1x1024x64 .f32) (h5 : a5.IsWhole)
    (a6 : Memref sig .tc .vmem S1x1024x1024 .f32) (h6 : a6.IsWhole)
    (x0 x1 x2 : Vec Ideal S1x1024x64 .f32) (x3 : Vec Ideal S1x1024x1024 .i32) :
    out0_A_5 (F := Ideal) c i a1 h1 a2 h2 a3 h3 a4 h4 a5 h5 a6 h6 x0 x1 x2 x3 = attnBlock x0 x1 x3 := by
  unfold out0_A_5
  rw [View.read_writes_eq_canon _ _ _ (cover0_A_5 c i a1 h1 a2 h2 a3 h3 a4 h4 a5 h5 a6 h6 x0 x1 x2 x3)]
  funext y
  refine View.canon_apply_of_pieces (attnBlock x0 x1 x3) _ ?_ y (cover0_A_5 c i a1 h1 a2 h2 a3 h3 a4 h4 a5 h5 a6 h6 x0 x1 x2 x3 y)
  unfold kernelRun0_A
  dsimp only
  sl_unfold_words
  intro p hp
  simp only [List.mem_cons, List.mem_nil_iff, or_false] at hp
  rcases hp with rfl | rfl | rfl | rfl
  · intro x
    simp only [View.readAt_eq_ld, h1.read_unread, h2.read_unread, h4.read_unread]
    exact attn_piece 768 (by decide) x0 x1 x3 _ _ _ x
  · intro x
    simp only [View.readAt_eq_ld, h1.read_unread, h2.read_unread, h4.read_unread]
    exact (congrFun (pay14_eq _ _ _) x).trans (attn_piece 512 (by decide) x0 x1 x3 _ _ _ x)
  · intro x
    simp only [View.readAt_eq_ld, h1.read_unread, h2.read_unread, h4.read_unread]
    exact (congrFun (pay11_eq _ _ _) x).trans (attn_piece 256 (by decide) x0 x1 x3 _ _ _ x)
  · intro x
    simp only [View.readAt_eq_ld, h1.read_unread, h2.read_unread, h4.read_unread]
    exact (congrFun (pay7_eq _ _ _) x).trans (attn_piece 0 (by decide) x0 x1 x3 _ _ _ x)

open Cert.KernelIdeal.Gen in
/-- THE CONTEXT BLOCK: what the body leaves in the first output's staging buffer is `ctxBlock` of the input blocks. -/
theorem out4_eq (c : Dev nD) (i : grid0.Coords) (a1 : Memref sig .tc .vmem S1x1024x64 .f32) (h1 : a1.IsWhole)
    (a2 : Memref sig .tc .vmem S1x1024x64 .f32) (h2 : a2.IsWhole) (a3 : Memref sig .tc .vmem S1x1024x64 .f32) (h3 : a3.IsWhole)
    (a4 : Memref sig .tc .vmem S1x1024x1024 .i32) (h4 : a4.IsWhole) (a5 : Memref sig .tc .vmem S1x1024x64 .f32) (h5 : a5.IsWhole)
    (a6 : Memref sig .tc .vmem S1x1024x1024 .f32) (h6 : a6.IsWhole)
    (x0 x1 x2 : Vec Ideal S1x1024x64 .f32) (x3 : Vec Ideal S1x1024x1024 .i32) :
    out0_A_4 (F := Ideal) c i a1 h1 a2 h2 a3 h3 a4 h4 a5 h5 a6 h6 x0 x1 x2 x3 = ctxBlock x0 x1 x2 x3 := by
  unfold out0_A_4
  rw [View.read_writes_eq_canon _ _ _ (cover0_A_4 c i a1 h1 a2 h2 a3 h3 a4 h4 a5 h5 a6 h6 x0 x1 x2 x3)]
  funext y
  refine View.canon_apply_of_pieces (ctxBlock x0 x1 x2 x3) _ ?_ y (cover0_A_4 c i a1 h1 a2 h2 a3 h3 a4 h4 a5 h5 a6 h6 x0 x1 x2 x3 y)
  unfold kernelRun0_A
  dsimp only
  sl_unfold_words
  intro p hp
  simp only [List.mem_cons, List.mem_nil_iff, or_false] at hp
  rcases hp with rfl | rfl | rfl | rfl
  · intro x
    simp only [View.readAt_eq_ld, h1.read_unread, h2.read_unread, h3.read_unread, h4.read_unread]
    exact ctx_piece 768 (by decide) x0 x1 x2 x3 _ _ _ x
  · intro x
    simp only [View.readAt_eq_ld, h1.read_unread, h2.read_unread, h3.read_unread, h4.read_unread]
    exact (congrFun (pay15_eq _ _ _ _) x).trans (ctx_piece 512 (by decide) x0 x1 x2 x3 _ _ _ x)
  · intro x
    simp only [View.readAt_eq_ld, h1.read_unread, h2.read_unread, h3.read_unread, h4.read_unread]
    exact (congrFun (pay12_eq _ _ _ _) x).trans (ctx_piece 256 (by decide) x0 x1 x2 x3 _ _ _ x)
  · intro x
    simp only [View.readAt_eq_ld, h1.read_unread, h2.read_unread, h3.read_unread, h4.read_unread]
    exact (congrFun (pay9_eq _ _ _ _) x).trans (ctx_piece 0 (by decide) x0 x1 x2 x3 _ _ _ x)

end Cert.KernelIdeal.Block

end
-- ==== Proof.ArrayValue.lean ====
/-
  From blocks to arrays: what the two result arrays of the kernel's region hold after all 64 grid points.

  Grid point t stages block t of each array (the index maps are (t, 0, 0) on all six windows: one (batch, head) pair
  per point), the body turns the four input blocks into the two output blocks (`attnBlock`, `ctxBlock`), and every
  point writes its two blocks back.  A block's entry (0, q, ·) is the array's entry (t, q, ·); so the block point t
  writes back is block t of ONE function of the arrays — `attnArr` and `ctxArr` below, row (t, q) of the weights
  computed from query row (t, q), the keys of t and mask row (t, q) — and since index (t, q, k) lies in point t's
  block, the 64 blocks cover each array.
-/
import proofs.«133450_j24026047054463_2_alg».proof.Proof.BlockValue

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.RowMath Cert.KernelIdeal.Block

variable (m : (ℓ : Loc nD τ sig) → Buf (Elt Ideal) ℓ)

/-- Mask row (t, q) of a [64, 1024, 1024] array of 32-bit words, as the comparison reads it. -/
def maskOf3 (X3 : S64x1024x1024.Idx → BitVec 32) (t : Fin 64) (q : Fin 1024) : Fin 1024 → BitVec 1 :=
  fun k => IntOp.cmpi .ne (X3 (ix3 t q k)) 0#32

/-- The attention weight of query row (t, q) on key k, from the [64, 1024, ·] arrays. -/
def attn3 (X0 X1 : S64x1024x64.Idx → EReal) (X3 : S64x1024x1024.Idx → BitVec 32) (t : Fin 64) (q k : Fin 1024) : EReal :=
  attnRow (fun d : Fin 64 => X0 (ix3 t q d)) (fun (k' : Fin 1024) (d : Fin 64) => X1 (ix3 t k' d)) (maskOf3 X3 t q) k

/-- Query row (t, q)'s context at v. -/
def ctx3 (X0 X1 X2 : S64x1024x64.Idx → EReal) (X3 : S64x1024x1024.Idx → BitVec 32) (t : Fin 64) (q : Fin 1024) (v : Fin 64) : EReal :=
  ctxRow (attn3 X0 X1 X3 t q) (fun (k' : Fin 1024) (v' : Fin 64) => X2 (ix3 t k' v')) v

/-- The weights array as a function of its index. -/
def attnArr (X0 X1 : S64x1024x64.Idx → EReal) (X3 : S64x1024x1024.Idx → BitVec 32) : S64x1024x1024.Idx → EReal :=
  fun i => attn3 X0 X1 X3 ⟨(i 0).val, (i 0).isLt⟩ ⟨(i 1).val, (i 1).isLt⟩ ⟨(i 2).val, (i 2).isLt⟩

/-- The context array as a function of its index. -/
def ctxArr (X0 X1 X2 : S64x1024x64.Idx → EReal) (X3 : S64x1024x1024.Idx → BitVec 32) : S64x1024x64.Idx → EReal :=
  fun i => ctx3 X0 X1 X2 X3 ⟨(i 0).val, (i 0).isLt⟩ ⟨(i 1).val, (i 1).isLt⟩ ⟨(i 2).val, (i 2).isLt⟩

/-- The printed index maps, decided over the grid: every window's block at point t is block (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

theorem t_lt (t : Fin cfg0.N) : t.val < 64 := by
  have hN : grid0.N = 64 := N_0
  have h : t.val < grid0.N := t.isLt
  omega

/-- Block t of the query array: local (0, q, d) is the array's (t, q, d). -/
theorem iblk0_apply (c : Dev nD) (t : Fin cfg0.N) (q : Fin 1024) (d : Fin 64) :
    (iblk m c 0 t : Vec Ideal S1x1024x64 .f32) (ix3 (0 : Fin 1) q d) = V m c main_v0 (ix3 ⟨t.val, t_lt t⟩ q d) := by
  obtain ⟨⟨e0, e1, e2⟩, -⟩ := idx_facts t
  unfold iblk
  rw [View.read_apply]
  show V m c main_v0 _ = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 1024 + 1 * q.val = q.val; omega
  | ⟨2, _⟩ => show win0_0.index t (2 : Fin 3) * 64 + 1 * d.val = d.val; omega

/-- Block t of the key array. -/
theorem iblk1_apply (c : Dev nD) (t : Fin cfg0.N) (q : Fin 1024) (d : Fin 64) :
    (iblk m c 1 t : Vec Ideal S1x1024x64 .f32) (ix3 (0 : Fin 1) q d) = V m c main_v1 (ix3 ⟨t.val, t_lt t⟩ q d) := by
  obtain ⟨-, ⟨e0, e1, e2⟩, -⟩ := idx_facts t
  unfold iblk
  rw [View.read_apply]
  show V m c main_v1 _ = _
  refine congrArg (V m c main_v1) (funext fun a => Fin.ext ?_)
  match a with
  | ⟨0, _⟩ => show win0_1.index t (0 : Fin 3) * 1 + 1 * 0 = t.val; omega
  | ⟨1, _⟩ => show win0_1.index t (1 : Fin 3) * 1024 + 1 * q.val = q.val; omega
  | ⟨2, _⟩ => show win0_1.index t (2 : Fin 3) * 64 + 1 * d.val = d.val; omega

/-- Block t of the value array. -/
theorem iblk2_apply (c : Dev nD) (t : Fin cfg0.N) (q : Fin 1024) (d : Fin 64) :
    (iblk m c 2 t : Vec Ideal S1x1024x64 .f32) (ix3 (0 : Fin 1) q d) = V m c main_v2 (ix3 ⟨t.val, t_lt t⟩ q d) := by
  obtain ⟨-, -, ⟨e0, e1, e2⟩, -⟩ := idx_facts t
  unfold iblk
  rw [View.read_apply]
  show V m c main_v2 _ = _
  refine congrArg (V m c main_v2) (funext fun a => Fin.ext ?_)
  match a with
  | ⟨0, _⟩ => show win0_2.index t (0 : Fin 3) * 1 + 1 * 0 = t.val; omega
  | ⟨1, _⟩ => show win0_2.index t (1 : Fin 3) * 1024 + 1 * q.val = q.val; omega
  | ⟨2, _⟩ => show win0_2.index t (2 : Fin 3) * 64 + 1 * d.val = d.val; omega

/-- Block t of the mask array. -/
theorem iblk3_apply (c : Dev nD) (t : Fin cfg0.N) (q k : Fin 1024) :
    (iblk m c 3 t : Vec Ideal S1x1024x1024 .i32) (ix3 (0 : Fin 1) q k) = V m c main_v4 (ix3 ⟨t.val, t_lt t⟩ q k) := by
  obtain ⟨-, -, -, ⟨e0, e1, e2⟩, -⟩ := idx_facts t
  unfold iblk
  rw [View.read_apply]
  show V m c main_v4 _ = _
  refine congrArg (V m c main_v4) (funext fun a => Fin.ext ?_)
  match a with
  | ⟨0, _⟩ => show win0_3.index t (0 : Fin 3) * 1 + 1 * 0 = t.val; omega
  | ⟨1, _⟩ => show win0_3.index t (1 : Fin 3) * 1024 + 1 * q.val = q.val; omega
  | ⟨2, _⟩ => show win0_3.index t (2 : Fin 3) * 1024 + 1 * k.val = k.val; omega

/-- Row q of point t's blocks is row (t, q) of the arrays: the weights. -/
theorem blockAttn_eq (c : Dev nD) (t : Fin cfg0.N) (q : Fin 1024) :
    blockAttn (iblk m c 0 t) (iblk m c 1 t) (iblk m c 3 t) q
      = attn3 (V m c main_v0) (V m c main_v1) (V m c main_v4) ⟨t.val, t_lt t⟩ q := by
  unfold blockAttn attn3
  have eq : (fun d : Fin 64 => (iblk m c 0 t : Vec Ideal S1x1024x64 .f32) (ix3 (0 : Fin 1) q d))
      = fun d : Fin 64 => V m c main_v0 (ix3 ⟨t.val, t_lt t⟩ q d) := funext fun d => iblk0_apply m c t q d
  have ek : (fun (k' : Fin 1024) (d : Fin 64) => (iblk m c 1 t : Vec Ideal S1x1024x64 .f32) (ix3 (0 : Fin 1) k' d))
      = fun (k' : Fin 1024) (d : Fin 64) => V m c main_v1 (ix3 ⟨t.val, t_lt t⟩ k' d) :=
    funext fun k' => funext fun d => iblk1_apply m c t k' d
  have em : maskOf (iblk m c 3 t) q = maskOf3 (V m c main_v4) ⟨t.val, t_lt t⟩ q :=
    funext fun k' => congrArg (fun w => IntOp.cmpi .ne w 0#32) (iblk3_apply m c t q k')
  rw [eq, ek, em]

/-- Row q of point t's blocks is row (t, q) of the arrays: the context. -/
theorem blockCtx_eq (c : Dev nD) (t : Fin cfg0.N) (q : Fin 1024) :
    blockCtx (iblk m c 0 t) (iblk m c 1 t) (iblk m c 2 t) (iblk m c 3 t) q
      = ctx3 (V m c main_v0) (V m c main_v1) (V m c main_v2) (V m c main_v4) ⟨t.val, t_lt t⟩ q := by
  unfold blockCtx ctx3
  have ev : (fun (k' : Fin 1024) (v' : Fin 64) => (iblk m c 2 t : Vec Ideal S1x1024x64 .f32) (ix3 (0 : Fin 1) k' v'))
      = fun (k' : Fin 1024) (v' : Fin 64) => V m c main_v2 (ix3 ⟨t.val, t_lt t⟩ k' v') :=
    funext fun k' => funext fun v' => iblk2_apply m c t k' v'
  rw [blockAttn_eq, ev]

/-- WHAT POINT t WRITES BACK to the weights array is block t of `attnArr` of the arrays as the region finds them. -/
theorem flushed5_eq (c : Dev nD) (t : Fin cfg0.N) :
    (dats m 0 c).flushed 5 t
      = ((cfg0.win 5).blk t).view.read (Elt Ideal) (attnArr (V m c main_v0) (V m c main_v1) (V m c main_v4)) := by
  obtain ⟨-, -, -, -, -, ⟨e0, e1, e2⟩⟩ := idx_facts t
  show (cfg0.win 5).cut (grid0.coords t) ((dats m 0 c).after 5 t) = _
  rw [after0_5]
  unfold outsAt0
  dsimp only
  rw [out5_eq c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t)]
  funext j
  show attnBlock (iblk m c 0 t) (iblk m c 1 t) (iblk m c 3 t) j
    = attnArr (V m c main_v0) (V m c main_v1) (V m c main_v4) (((cfg0.win 5).blk t).view.emb j)
  unfold attnBlock attnArr
  have hj0 : (j 0).val < 1 := (j 0).isLt
  have E0 : (⟨((((cfg0.win 5).blk t).view.emb j) 0).val, ((((cfg0.win 5).blk t).view.emb j) 0).isLt⟩ : Fin 64) = ⟨t.val, t_lt t⟩ :=
    Fin.ext (by show win0_5.index t (0 : Fin 3) * 1 + 1 * (j 0).val = t.val; omega)
  have E1 : (⟨((((cfg0.win 5).blk t).view.emb j) 1).val, ((((cfg0.win 5).blk t).view.emb j) 1).isLt⟩ : Fin 1024) = ⟨(j 1).val, (j 1).isLt⟩ :=
    Fin.ext (by show win0_5.index t (1 : Fin 3) * 1024 + 1 * (j 1).val = (j 1).val; omega)
  have E2 : (⟨((((cfg0.win 5).blk t).view.emb j) 2).val, ((((cfg0.win 5).blk t).view.emb j) 2).isLt⟩ : Fin 1024) = ⟨(j 2).val, (j 2).isLt⟩ :=
    Fin.ext (by show win0_5.index t (2 : Fin 3) * 1024 + 1 * (j 2).val = (j 2).val; omega)
  rw [E0, E1, E2, blockAttn_eq]

/-- WHAT POINT t WRITES BACK to the context array is block t of `ctxArr`. -/
theorem flushed4_eq (c : Dev nD) (t : Fin cfg0.N) :
    (dats m 0 c).flushed 4 t
      = ((cfg0.win 4).blk t).view.read (Elt Ideal) (ctxArr (V m c main_v0) (V m c main_v1) (V m c main_v2) (V m c main_v4)) := by
  obtain ⟨-, -, -, -, ⟨e0, e1, e2⟩, -⟩ := idx_facts t
  show (cfg0.win 4).cut (grid0.coords t) ((dats m 0 c).after 4 t) = _
  rw [after0_4]
  unfold outsAt0
  dsimp only
  rw [out4_eq c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t)]
  funext j
  show ctxBlock (iblk m c 0 t) (iblk m c 1 t) (iblk m c 2 t) (iblk m c 3 t) j
    = ctxArr (V m c main_v0) (V m c main_v1) (V m c main_v2) (V m c main_v4) (((cfg0.win 4).blk t).view.emb j)
  unfold ctxBlock ctxArr
  have hj0 : (j 0).val < 1 := (j 0).isLt
  have E0 : (⟨((((cfg0.win 4).blk t).view.emb j) 0).val, ((((cfg0.win 4).blk t).view.emb j) 0).isLt⟩ : Fin 64) = ⟨t.val, t_lt t⟩ :=
    Fin.ext (by show win0_4.index t (0 : Fin 3) * 1 + 1 * (j 0).val = t.val; omega)
  have E1 : (⟨((((cfg0.win 4).blk t).view.emb j) 1).val, ((((cfg0.win 4).blk t).view.emb j) 1).isLt⟩ : Fin 1024) = ⟨(j 1).val, (j 1).isLt⟩ :=
    Fin.ext (by show win0_4.index t (1 : Fin 3) * 1024 + 1 * (j 1).val = (j 1).val; omega)
  have E2 : (⟨((((cfg0.win 4).blk t).view.emb j) 2).val, ((((cfg0.win 4).blk t).view.emb j) 2).isLt⟩ : Fin 64) = ⟨(j 2).val, (j 2).isLt⟩ :=
    Fin.ext (by show win0_4.index t (2 : Fin 3) * 64 + 1 * (j 2).val = (j 2).val; omega)
  rw [E0, E1, E2, blockCtx_eq]

/-- An index of the weights array is in point t's block iff each coordinate is in the block's range on its axis. -/
theorem mem_blk5 (t : Fin cfg0.N) (i : S64x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v5_1).slice (win0_5.rect t)).set ↔ _
  rw [View.set_slice_whole, Rect.mem_set_unit]
  exact Iff.rfl

theorem mem_blk4 (t : Fin cfg0.N) (i : S64x1024x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v5_0).slice (win0_4.rect t)).set ↔ _
  rw [View.set_slice_whole, Rect.mem_set_unit]
  exact Iff.rfl

/-- Index (t, q, k) of the weights array lies in the block point t writes back. -/
theorem cover5 (i : S64x1024x1024.Idx) : ∃ t : Fin cfg0.N, (cfg0.win 5).flush t = true ∧ i ∈ ((cfg0.win 5).blk t).view.set := by
  have hN : grid0.N = 64 := N_0
  have h0 : (i 0).val < 64 := (i 0).isLt
  have h1 : (i 1).val < 1024 := (i 1).isLt
  have h2 : (i 2).val < 1024 := (i 2).isLt
  have hlt : (i 0).val < grid0.N := by omega
  obtain ⟨-, -, -, -, -, ⟨e0, e1, e2⟩⟩ := idx_facts ⟨(i 0).val, hlt⟩
  have e0' : win0_5.index ⟨(i 0).val, hlt⟩ (0 : Fin 3) = (i 0).val := e0
  refine ⟨⟨(i 0).val, hlt⟩, flush0_5 _, ?_⟩
  rw [mem_blk5]
  intro a
  match a with
  | ⟨0, _⟩ => show win0_5.index ⟨(i 0).val, hlt⟩ (0 : Fin 3) * 1 ≤ (i 0).val ∧ (i 0).val < win0_5.index ⟨(i 0).val, hlt⟩ (0 : Fin 3) * 1 + 1; omega
  | ⟨1, _⟩ => show win0_5.index ⟨(i 0).val, hlt⟩ (1 : Fin 3) * 1024 ≤ (i 1).val ∧ (i 1).val < win0_5.index ⟨(i 0).val, hlt⟩ (1 : Fin 3) * 1024 + 1024; omega
  | ⟨2, _⟩ => show win0_5.index ⟨(i 0).val, hlt⟩ (2 : Fin 3) * 1024 ≤ (i 2).val ∧ (i 2).val < win0_5.index ⟨(i 0).val, hlt⟩ (2 : Fin 3) * 1024 + 1024; omega

/-- Index (t, q, v) of the context array lies in the block point t writes back. -/
theorem cover4 (i : S64x1024x64.Idx) : ∃ t : Fin cfg0.N, (cfg0.win 4).flush t = true ∧ i ∈ ((cfg0.win 4).blk t).view.set := by
  have hN : grid0.N = 64 := N_0
  have h0 : (i 0).val < 64 := (i 0).isLt
  have h1 : (i 1).val < 1024 := (i 1).isLt
  have h2 : (i 2).val < 64 := (i 2).isLt
  have hlt : (i 0).val < grid0.N := by omega
  obtain ⟨-, -, -, -, ⟨e0, e1, e2⟩, -⟩ := idx_facts ⟨(i 0).val, hlt⟩
  have e0' : win0_4.index ⟨(i 0).val, hlt⟩ (0 : Fin 3) = (i 0).val := e0
  refine ⟨⟨(i 0).val, hlt⟩, flush0_4 _, ?_⟩
  rw [mem_blk4]
  intro a
  match a with
  | ⟨0, _⟩ => show win0_4.index ⟨(i 0).val, hlt⟩ (0 : Fin 3) * 1 ≤ (i 0).val ∧ (i 0).val < win0_4.index ⟨(i 0).val, hlt⟩ (0 : Fin 3) * 1 + 1; omega
  | ⟨1, _⟩ => show win0_4.index ⟨(i 0).val, hlt⟩ (1 : Fin 3) * 1024 ≤ (i 1).val ∧ (i 1).val < win0_4.index ⟨(i 0).val, hlt⟩ (1 : Fin 3) * 1024 + 1024; omega
  | ⟨2, _⟩ => show win0_4.index ⟨(i 0).val, hlt⟩ (2 : Fin 3) * 64 ≤ (i 2).val ∧ (i 2).val < win0_4.index ⟨(i 0).val, hlt⟩ (2 : Fin 3) * 64 + 64; omega

/-- THE WEIGHTS ARRAY after the region: `attnArr` of the arrays as the region finds them. -/
theorem final5 (c : Dev nD) :
    (dats m 0 c).arrAt 5 cfg0.N = attnArr (V m c main_v0) (V m c main_v1) (V m c main_v4) :=
  (dats m 0 c).arrAt_eq_of_cover 5 _ (fun t _ => flushed5_eq m c t) cover5

/-- THE CONTEXT ARRAY after the region: `ctxArr` of the arrays as the region finds them. -/
theorem final4 (c : Dev nD) :
    (dats m 0 c).arrAt 4 cfg0.N = ctxArr (V m c main_v0) (V m c main_v1) (V m c main_v2) (V m c main_v4) :=
  (dats m 0 c).arrAt_eq_of_cover 4 _ (fun t _ => flushed4_eq m c t) cover4

end Cert.KernelIdeal.Arrays

end
-- ==== Proof.Spec4.lean ====
/-
  The two results as functions of the four arguments, over the arguments' own 4-D shapes.

  weights (b, h, q, k) = the attention weight of query row (b, h, q) on key k, computed from the query row, the keys
  of (b, h) and mask row (b, h, q);  context (b, h, q, v) = those weights against the value rows of (b, h).
  Both programs are shown to end at these two functions.
-/
import proofs.«133450_j24026047054463_2_alg».proof.Proof.RowMath
import Idealize.ShloMosaic.Lib.ValueIdx

noncomputable section

namespace Cert.Spec4

open Idealize.ShloMosaic Idealize.ShloMosaic.ValueIdx Cert.RowMath

abbrev SQ : Shape := ⟨4, ![4, 16, 1024, 64]⟩
abbrev SM : Shape := ⟨4, ![4, 16, 1024, 1024]⟩

/-- The attention weight of query row (b, h, q) on key k. -/
def attn4 (a0 a1 : SQ.Idx → EReal) (a3 : SM.Idx → BitVec 1) (b : Fin 4) (h : Fin 16) (q k : Fin 1024) : EReal :=
  attnRow (fun d : Fin 64 => a0 (ix4 b h q d)) (fun (k' : Fin 1024) (d : Fin 64) => a1 (ix4 b h k' d))
    (fun k' : Fin 1024 => a3 (ix4 b h q k')) k

/-- Query row (b, h, q)'s context at v. -/
def ctx4 (a0 a1 a2 : SQ.Idx → EReal) (a3 : SM.Idx → BitVec 1) (b : Fin 4) (h : Fin 16) (q : Fin 1024) (v : Fin 64) : EReal :=
  ctxRow (attn4 a0 a1 a3 b h q) (fun (k' : Fin 1024) (v' : Fin 64) => a2 (ix4 b h k' v')) v

/-- The weights result, index by index. -/
def attnOut (a0 a1 : SQ.Idx → EReal) (a3 : SM.Idx → BitVec 1) : SM.Idx → EReal :=
  fun i => attn4 a0 a1 a3 ⟨(i 0).val, (i 0).isLt⟩ ⟨(i 1).val, (i 1).isLt⟩ ⟨(i 2).val, (i 2).isLt⟩ ⟨(i 3).val, (i 3).isLt⟩

/-- The context result, index by index. -/
def ctxOut (a0 a1 a2 : SQ.Idx → EReal) (a3 : SM.Idx → BitVec 1) : SQ.Idx → EReal :=
  fun i => ctx4 a0 a1 a2 a3 ⟨(i 0).val, (i 0).isLt⟩ ⟨(i 1).val, (i 1).isLt⟩ ⟨(i 2).val, (i 2).isLt⟩ ⟨(i 3).val, (i 3).isLt⟩

theorem attnOut_ix4 (a0 a1 : SQ.Idx → EReal) (a3 : SM.Idx → BitVec 1) (b : Fin 4) (h : Fin 16) (q k : Fin 1024) :
    attnOut a0 a1 a3 (ix4 b h q k) = attn4 a0 a1 a3 b h q k := rfl

theorem ctxOut_ix4 (a0 a1 a2 : SQ.Idx → EReal) (a3 : SM.Idx → BitVec 1) (b : Fin 4) (h : Fin 16) (q : Fin 1024) (v : Fin 64) :
    ctxOut a0 a1 a2 a3 (ix4 b h q v) = ctx4 a0 a1 a2 a3 b h q v := rfl

end Cert.Spec4

end
-- ==== Proof.KernelRun.lean ====
/-
  The kernel's whole run, read: both results as the functions of `Spec4` of the four arguments.

  Around the region the program only re-lays arrays.  Before it: each [4, 16, 1024, ·] argument is reshaped to
  [64, 1024, ·] — entry (b·16 + h, q, ·) is the argument's (b, h, q, ·), the same row-major position — and the
  one-bit mask is widened to 32-bit words (so "word ≠ 0" reads the bit back).  After it: the two result arrays are
  reshaped back to 4-D.  So the 3-D functions `attnArr` / `ctxArr` of the reshaped arguments, reshaped back, are
  `attnOut` / `ctxOut` of the arguments: row (b·16 + h, q) of the 3-D arrays is row (b, h, q) of the arguments.
-/
import proofs.«133450_j24026047054463_2_alg».proof.Proof.ArrayValue
import proofs.«133450_j24026047054463_2_alg».proof.Proof.Spec4
import Idealize.ShloMosaic.Lib.StableHlo.Run

set_option maxRecDepth 16384

noncomputable section

namespace Cert.KernelIdeal.KRun

open Idealize.ShloMosaic Idealize.ShloMosaic.TcCoe Idealize.ShloMosaic.ValueIdx Idealize.SL.Sem Idealize.ShloMosaic.StableHlo
open Cert.KernelIdeal Cert.KernelIdeal.Gen Cert.RowMath Cert.KernelIdeal.Arrays Cert.Spec4

/-- A one-bit word widened to 32 bits is not zero exactly when the bit is set. -/
theorem ne_zero_setWidth : ∀ b : BitVec 1, IntOp.cmpi .ne (b.setWidth 32) 0#32 = b := by decide

/-- (b, h) as one index of 64. -/
theorem bh_lt (b : Fin 4) (h : Fin 16) : b.val * 16 + h.val < 64 := by have := b.isLt; have := h.isLt; omega

/-- A [4, 16, 1024, n] array reshaped to [64, 1024, n] reads, at (b·16 + h, q, d), the array's (b, h, q, d). -/
theorem reshape43_apply {α : Type} {n : Nat} (x : (⟨4, ![4, 16, 1024, n]⟩ : Shape).Idx → α)
    (hc : (⟨4, ![4, 16, 1024, n]⟩ : Shape).ShapeCasts ⟨3, ![64, 1024, n]⟩) (b : Fin 4) (h : Fin 16) (q : Fin 1024) (d : Fin n) :
    shapeCast ⟨3, ![64, 1024, n]⟩ x hc (ix3 (⟨b.val * 16 + h.val, bh_lt b h⟩ : Fin 64) q d) = x (ix4 b h q d) :=
  shapeCast_apply x hc _ _ (by
    rw [Shape.rowMajor_val_three, Shape.rowMajor_val_four]
    show ((b.val * 16 + h.val) * 1024 + q.val) * n + d.val = ((b.val * 16 + h.val) * 1024 + q.val) * n + d.val
    rfl)

/-- A [64, 1024, n] array reshaped to [4, 16, 1024, n] reads, at (b, h, q, d), the array's (b·16 + h, q, d). -/
theorem reshape34_apply {α : Type} {n : Nat} (x : (⟨3, ![64, 1024, n]⟩ : Shape).Idx → α)
    (hc : (⟨3, ![64, 1024, n]⟩ : Shape).ShapeCasts ⟨4, ![4, 16, 1024, n]⟩) (b : Fin 4) (h : Fin 16) (q : Fin 1024) (d : Fin n) :
    shapeCast ⟨4, ![4, 16, 1024, n]⟩ x hc (ix4 b h q d) = x (ix3 (⟨b.val * 16 + h.val, bh_lt b h⟩ : Fin 64) q d) :=
  shapeCast_apply x hc _ _ (by
    rw [Shape.rowMajor_val_three, Shape.rowMajor_val_four]
    show ((b.val * 16 + h.val) * 1024 + q.val) * n + d.val = ((b.val * 16 + h.val) * 1024 + q.val) * n + d.val
    rfl)

/-- Row (b·16 + h, q) of the 3-D weights over the reshaped arguments is row (b, h, q) of the 4-D weights. -/
theorem attn3_reshaped (a0 a1 : SQ.Idx → EReal) (a3 : SM.Idx → BitVec 1)
    (h0 : SQ.ShapeCasts S64x1024x64) (h3 : SM.ShapeCasts S64x1024x1024) (hw : 1 < 32) (b : Fin 4) (h : Fin 16) (q : Fin 1024) :
    attn3 (shapeCast S64x1024x64 a0 h0) (shapeCast S64x1024x64 a1 h0) (extui 32 (shapeCast S64x1024x1024 a3 h3) hw)
        ⟨b.val * 16 + h.val, bh_lt b h⟩ q
      = attn4 a0 a1 a3 b h q := by
  unfold attn3 attn4
  have eq : (fun d : Fin 64 => shapeCast S64x1024x64 a0 h0 (ix3 (⟨b.val * 16 + h.val, bh_lt b h⟩ : Fin 64) q d))
      = fun d : Fin 64 => a0 (ix4 b h q d) := funext fun d => reshape43_apply a0 h0 b h q d
  have ek : (fun (k' : Fin 1024) (d : Fin 64) => shapeCast S64x1024x64 a1 h0 (ix3 (⟨b.val * 16 + h.val, bh_lt b h⟩ : Fin 64) k' d))
      = fun (k' : Fin 1024) (d : Fin 64) => a1 (ix4 b h k' d) := funext fun k' => funext fun d => reshape43_apply a1 h0 b h k' d
  have em : maskOf3 (extui 32 (shapeCast S64x1024x1024 a3 h3) hw) ⟨b.val * 16 + h.val, bh_lt b h⟩ q
      = fun k' : Fin 1024 => a3 (ix4 b h q k') := funext fun k' => by
    show IntOp.cmpi .ne ((shapeCast S64x1024x1024 a3 h3 (ix3 (⟨b.val * 16 + h.val, bh_lt b h⟩ : Fin 64) q k')).setWidth 32) 0#32 = _
    rw [reshape43_apply a3 h3 b h q k', ne_zero_setWidth]
  rw [eq, ek, em]

/-- The 3-D weights of the reshaped arguments, reshaped back, are the 4-D weights of the arguments. -/
theorem attn_bridge (a0 a1 : SQ.Idx → EReal) (a3 : SM.Idx → BitVec 1)
    (h0 : SQ.ShapeCasts S64x1024x64) (h3 : SM.ShapeCasts S64x1024x1024) (hw : 1 < 32) (h5 : S64x1024x1024.ShapeCasts SM) :
    shapeCast SM (attnArr (shapeCast S64x1024x64 a0 h0) (shapeCast S64x1024x64 a1 h0) (extui 32 (shapeCast S64x1024x1024 a3 h3) hw)) h5
      = attnOut a0 a1 a3 := by
  funext i
  obtain ⟨b, h, q, k, rfl⟩ : ∃ (b : Fin 4) (h : Fin 16) (q k : Fin 1024), i = ix4 b h q k := ⟨i 0, i 1, i 2, i 3, eq_ix4 i⟩
  rw [reshape34_apply _ h5 b h q k, attnOut_ix4]
  show attn3 _ _ _ ⟨b.val * 16 + h.val, _⟩ q k = _
  rw [attn3_reshaped a0 a1 a3 h0 h3 hw b h q]

/-- The 3-D context of the reshaped arguments, reshaped back, is the 4-D context of the arguments. -/
theorem ctx_bridge (a0 a1 a2 : SQ.Idx → EReal) (a3 : SM.Idx → BitVec 1)
    (h0 : SQ.ShapeCasts S64x1024x64) (h3 : SM.ShapeCasts S64x1024x1024) (hw : 1 < 32) (h4 : S64x1024x64.ShapeCasts SQ) :
    shapeCast SQ (ctxArr (shapeCast S64x1024x64 a0 h0) (shapeCast S64x1024x64 a1 h0) (shapeCast S64x1024x64 a2 h0)
        (extui 32 (shapeCast S64x1024x1024 a3 h3) hw)) h4
      = ctxOut a0 a1 a2 a3 := by
  funext i
  obtain ⟨b, h, q, v, rfl⟩ : ∃ (b : Fin 4) (h : Fin 16) (q : Fin 1024) (v : Fin 64), i = ix4 b h q v := ⟨i 0, i 1, i 2, i 3, eq_ix4 i⟩
  rw [reshape34_apply _ h4 b h q v, ctxOut_ix4]
  show ctx3 _ _ _ _ ⟨b.val * 16 + h.val, _⟩ q v = _
  unfold ctx3 ctx4
  have ev : (fun (k' : Fin 1024) (v' : Fin 64) => shapeCast S64x1024x64 a2 h0 (ix3 (⟨b.val * 16 + h.val, bh_lt b h⟩ : Fin 64) k' v'))
      = fun (k' : Fin 1024) (v' : Fin 64) => a2 (ix4 b h k' v') := funext fun k' => funext fun v' => reshape43_apply a2 h0 b h k' v'
  rw [attn3_reshaped a0 a1 a3 h0 h3 hw b h q, ev]

variable (m : (ℓ : Loc nD τ sig) → Buf (Elt Ideal) ℓ) (ρ : Dev nD → PrngReg)

/-- The region finds the query array as the reshaped first argument. -/
theorem V_v0 (c : Dev nD) : (V m c main_v0 : S64x1024x64.Idx → EReal)
    = shapeCast S64x1024x64 (m ((c : Thread nD τ).loc main_arg0)) Gen.shapeCasts_S4x16x1024x64_S64x1024x64 := by
  show StableHlo.after hostOps0 (fun b => m (c, b)) (Proc.devRef .tc main_v0) = _
  after_results
  rfl

/-- The key array: the reshaped second argument. -/
theorem V_v1 (c : Dev nD) : (V m c main_v1 : S64x1024x64.Idx → EReal)
    = shapeCast S64x1024x64 (m ((c : Thread nD τ).loc main_arg1)) Gen.shapeCasts_S4x16x1024x64_S64x1024x64 := by
  show StableHlo.after hostOps0 (fun b => m (c, b)) (Proc.devRef .tc main_v1) = _
  after_results
  rfl

/-- The value array: the reshaped third argument. -/
theorem V_v2 (c : Dev nD) : (V m c main_v2 : S64x1024x64.Idx → EReal)
    = shapeCast S64x1024x64 (m ((c : Thread nD τ).loc main_arg2)) Gen.shapeCasts_S4x16x1024x64_S64x1024x64 := by
  show StableHlo.after hostOps0 (fun b => m (c, b)) (Proc.devRef .tc main_v2) = _
  after_results
  rfl

/-- The mask array: the reshaped fourth argument, each bit widened to a 32-bit word. -/
theorem V_v4 (c : Dev nD) : (V m c main_v4 : S64x1024x1024.Idx → BitVec 32)
    = extui 32 (shapeCast S64x1024x1024 (m ((c : Thread nD τ).loc main_arg3)) Gen.shapeCasts_S4x16x1024x1024_S64x1024x1024) Gen.natLt_1_32 := by
  show StableHlo.after hostOps0 (fun b => m (c, b)) (Proc.devRef .tc main_v4) = _
  after_results
  rfl

/-- After the region the second result is the weights array reshaped to 4-D. -/
theorem tail_v7 (c : Dev nD) : Pipeline.afterTail₀ cfgs (dats m) 0 (V0 m) [hostOps1] c main_v7
    = shapeCast S4x16x1024x1024 ((dats m 0 c).arrAt 5 cfg0.N) Gen.shapeCasts_S64x1024x1024_S4x16x1024x1024 := by
  unfold Pipeline.afterTail₀
  show StableHlo.after hostOps1 _ (Proc.devRef .tc main_v7) = _
  after_results
  exact congrArg (fun A => shapeCast S4x16x1024x1024 A Gen.shapeCasts_S64x1024x1024_S4x16x1024x1024)
    (Pipeline.withArrays_arr spec0 launch0.win.arr_inj c _ _ 5)

/-- After the region the first result is the context array reshaped to 4-D. -/
theorem tail_v6 (c : Dev nD) : Pipeline.afterTail₀ cfgs (dats m) 0 (V0 m) [hostOps1] c main_v6
    = shapeCast S4x16x1024x64 ((dats m 0 c).arrAt 4 cfg0.N) Gen.shapeCasts_S64x1024x64_S4x16x1024x64 := by
  unfold Pipeline.afterTail₀
  show StableHlo.after hostOps1 _ (Proc.devRef .tc main_v6) = _
  after_results
  exact congrArg (fun A => shapeCast S4x16x1024x64 A Gen.shapeCasts_S64x1024x64_S4x16x1024x64)
    (Pipeline.withArrays_arr spec0 launch0.win.arr_inj c _ _ 4)

/-- THE KERNEL'S RUN: every weakly fair execution terminates with the context result at `ctxOut` and the weights
    result at `attnOut` of the four arguments, and the arguments unchanged. -/
theorem run : θ_run defs (onTc (τ := τ) (main (F := Ideal))) ⟨m, fun _ => 0, ρ⟩ fun r => ∀ c : Dev nD,
      r.2.mem ((c : Thread nD τ).loc main_v6)
        = ctxOut (m ((c : Thread nD τ).loc main_arg0)) (m ((c : Thread nD τ).loc main_arg1)) (m ((c : Thread nD τ).loc main_arg2))
            (m ((c : Thread nD τ).loc main_arg3))
      ∧ r.2.mem ((c : Thread nD τ).loc main_v7)
        = attnOut (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v6 (Pipeline.mem_restRefs_of main_v6 (by decide) (by decide))).trans ((tail_v6 m c).trans (by
        rw [final4, V_v0, V_v1, V_v2, V_v4]
        exact ctx_bridge _ _ _ _ _ _ _ _)),
      ((h c).2 main_v7 (Pipeline.mem_restRefs_of main_v7 (by decide) (by decide))).trans ((tail_v7 m c).trans (by
        rw [final5, V_v0, V_v1, V_v4]
        exact attn_bridge _ _ _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefValue.lean ====
/-
  The reference, read at an index: its two results are the row functions of `RowMath` over the 4-D arguments.

  At (b, h, q, k) the reference's weights are the softmax over k of the scores of query row (b, h, q): the product of
  that row with key row (b, h, k) divided by 8, replaced by the fill value where the mask is set.  Dividing the
  product by 8 is scaling the query by 1/8 first (`scaled_dot`), which is how `scoreRow` is written.  The reference
  takes the maximum once more against −∞ before subtracting it; that changes nothing.  Its context at (b, h, q, v) is
  the sum over k of the weights times the value rows.
-/
import proofs.«133450_j24026047054463_2_alg».proof.Proof.Gen.ReferenceIdeal.Read
import proofs.«133450_j24026047054463_2_alg».proof.Proof.RowMath
import proofs.«133450_j24026047054463_2_alg».proof.Proof.Spec4
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.RowMath Cert.Spec4

variable (x0 x1 x2 : (⟨S4x16x1024x64, .f32⟩ : BufTy).Contents (Elt Ideal)) (x3 : (⟨S4x16x1024x1024, .i1⟩ : BufTy).Contents (Elt Ideal))

/-- The masked scores at (b, h, q, k). -/
theorem scores_apply (b : Fin 4) (h : Fin 16) (q k : Fin 1024) :
    val_main_v3 (F := Ideal) x0 x1 x3 (ix4 b h q k)
      = scoreRow (fun d : Fin 64 => x0 (ix4 b h q d)) (fun (k' : Fin 1024) (d : Fin 64) => x1 (ix4 b h k' d))
          (fun k' : Fin 1024 => x3 (ix4 b h q k')) k := by
  rw [val_main_v3_apply, val_main_call0_v0_apply, val_main_cst_0_apply, val_main_v2_apply, val_main_v1_apply,
    val_main_cst_apply, val_main_v0_apply]
  unfold scoreRow
  rw [scaled_dot]
  have el : ∀ d : Fin 64, lidx_main_v0 (ix4 b h q k) d = ix4 b h q d := fun d =>
    funext fun a => Fin.ext (by match a with | ⟨0, _⟩ => rfl | ⟨1, _⟩ => rfl | ⟨2, _⟩ => rfl | ⟨3, _⟩ => rfl)
  have er : ∀ d : Fin 64, ridx_main_v0 (ix4 b h q k) d = ix4 b h k d := fun d =>
    funext fun a => Fin.ext (by match a with | ⟨0, _⟩ => rfl | ⟨1, _⟩ => rfl | ⟨2, _⟩ => rfl | ⟨3, _⟩ => rfl)
  simp only [el, er, Ideal.hostDivf_def, Ideal.ofBits_def]

theorem red3 : S4x16x1024x1024.Reduces [3] S4x16x1024 := by decide

/-- Row (b, h, q) with column k put back is (b, h, q, k). -/
theorem lift_row4 (b : Fin 4) (h : Fin 16) (q k : Fin 1024) : red3.lift (ix3 b h q) k = ix4 b h q k :=
  funext fun a => Fin.ext (by match a with | ⟨0, _⟩ => rfl | ⟨1, _⟩ => rfl | ⟨2, _⟩ => rfl | ⟨3, _⟩ => rfl)

/-- The row maximum the reference subtracts, at (b, h, q): the fold of max from −∞ over the row's scores. -/
theorem max_apply (b : Fin 4) (h : Fin 16) (q : Fin 1024) :
    val_main_v6 (F := Ideal) x0 x1 x3 (ix3 b h q)
      = rowMax (fun k : Fin 1024 => val_main_v3 (F := Ideal) x0 x1 x3 (ix4 b h q k)) := by
  rw [val_main_v6_apply, val_main_v5_apply, val_main_cst_2_apply]
  show max (Ideal.ofBits .f32 0xFF800000#32) (val_main_v4 (F := Ideal) x0 x1 x3 (ix3 b h q)) = _
  rw [max_negInf]
  unfold val_main_v4
  refine (Host.reduce_eq_fold_single FloatOps.maximumf _ _ Gen.reducesTo_S4x16x1024x1024_S4x16x1024_d3 red3 Gen.h_S_ (ix3 b h q)).trans ?_
  unfold rowMax
  have e : (val_main_v3 (F := Ideal) x0 x1 x3 ∘ red3.lift (ix3 b h q)) = fun k : Fin 1024 => val_main_v3 (F := Ideal) x0 x1 x3 (ix4 b h q k) :=
    funext fun k => congrArg (val_main_v3 (F := Ideal) x0 x1 x3) (lift_row4 b h q k)
  rw [e]; rfl

/-- The exponential of the shifted score at (b, h, q, k). -/
theorem exp_apply (b : Fin 4) (h : Fin 16) (q k : Fin 1024) :
    val_main_v10 (F := Ideal) x0 x1 x3 (ix4 b h q k)
      = Ideal.exp (val_main_v3 (F := Ideal) x0 x1 x3 (ix4 b h q k)
          - rowMax (fun k' : Fin 1024 => val_main_v3 (F := Ideal) x0 x1 x3 (ix4 b h q k'))) := by
  rw [val_main_v10_apply, val_main_v9_apply, val_main_v8_apply, val_main_v7_apply]
  have e : idx_main_v7 (idx_main_v8 (ix4 b h q k)) = ix3 b h q :=
    funext fun a => Fin.ext (by match a with | ⟨0, _⟩ => rfl | ⟨1, _⟩ => rfl | ⟨2, _⟩ => rfl)
  rw [e, max_apply]
  simp only [Ideal.hostUnary_exp_def, Ideal.subf_def]

/-- THE WEIGHTS at (b, h, q, k). -/
theorem attn_apply (b : Fin 4) (h : Fin 16) (q k : Fin 1024) :
    val_main_v14 (F := Ideal) x0 x1 x3 (ix4 b h q k) = attn4 x0 x1 x3 b h q k := by
  rw [val_main_v14_apply, val_main_v13_apply, val_main_v12_apply]
  have e : idx_main_v12 (idx_main_v13 (ix4 b h q k)) = ix3 b h q :=
    funext fun a => Fin.ext (by match a with | ⟨0, _⟩ => rfl | ⟨1, _⟩ => rfl | ⟨2, _⟩ => rfl)
  rw [e, val_main_v11_apply, val_main_cst_3_apply]
  have ei : ∀ k' : Fin 1024, idx_main_v11 (ix3 b h q) k' = ix4 b h q k' := fun k' =>
    funext fun a => Fin.ext (by match a with | ⟨0, _⟩ => rfl | ⟨1, _⟩ => rfl | ⟨2, _⟩ => rfl | ⟨3, _⟩ => rfl)
  have hs : (fun k' : Fin 1024 => val_main_v3 (F := Ideal) x0 x1 x3 (ix4 b h q k'))
      = scoreRow (fun d : Fin 64 => x0 (ix4 b h q d)) (fun (k' : Fin 1024) (d : Fin 64) => x1 (ix4 b h k' d))
          (fun k' : Fin 1024 => x3 (ix4 b h q k')) := funext fun k' => scores_apply x0 x1 x3 b h q k'
  simp only [ei, exp_apply, Ideal.hostDivf_def, Ideal.ofBits_def, Ideal.ofBits_zero_f32, zero_add]
  unfold attn4 attnRow softmaxRow
  rw [← hs]

/-- THE CONTEXT at (b, h, q, v). -/
theorem ctx_apply (b : Fin 4) (h : Fin 16) (q : Fin 1024) (v : Fin 64) :
    val_main_v15 (F := Ideal) x0 x1 x2 x3 (ix4 b h q v) = ctx4 x0 x1 x2 x3 b h q v := by
  rw [val_main_v15_apply]
  unfold ctx4 ctxRow
  refine Finset.sum_congr rfl fun k' _ => ?_
  have el : lidx_main_v15 (ix4 b h q v) k' = ix4 b h q k' :=
    funext fun a => Fin.ext (by match a with | ⟨0, _⟩ => rfl | ⟨1, _⟩ => rfl | ⟨2, _⟩ => rfl | ⟨3, _⟩ => rfl)
  have er : ridx_main_v15 (ix4 b h q v) k' = ix4 b h k' v :=
    funext fun a => Fin.ext (by match a with | ⟨0, _⟩ => rfl | ⟨1, _⟩ => rfl | ⟨2, _⟩ => rfl | ⟨3, _⟩ => rfl)
  rw [el, er, attn_apply]

/-- THE REFERENCE'S WEIGHTS, as one function of the arguments. -/
theorem attn_eq : val_main_v14 (F := Ideal) x0 x1 x3 = attnOut x0 x1 x3 := by
  funext i
  obtain ⟨b, h, q, k, rfl⟩ : ∃ (b : Fin 4) (h : Fin 16) (q k : Fin 1024), i = ix4 b h q k := ⟨i 0, i 1, i 2, i 3, eq_ix4 i⟩
  exact attn_apply x0 x1 x3 b h q k

/-- THE REFERENCE'S CONTEXT, as one function of the arguments. -/
theorem ctx_eq : val_main_v15 (F := Ideal) x0 x1 x2 x3 = ctxOut x0 x1 x2 x3 := by
  funext i
  obtain ⟨b, h, q, v, rfl⟩ : ∃ (b : Fin 4) (h : Fin 16) (q : Fin 1024) (v : Fin 64), i = ix4 b h q v := ⟨i 0, i 1, i 2, i 3, eq_ix4 i⟩
  exact ctx_apply x0 x1 x2 x3 b h q v

end Cert.ReferenceIdeal.RefValue

end
-- ==== Proof.lean ====
/-
  Scaled dot-product attention with a mask, B·H = 64 (batch, head) pairs, 1024 positions, 64 features: a Pallas kernel
  against its jnp reference, equal over the extended reals.

  Both programs compute, for every (b, h) and every query row q,
      score k = fill (−1e9) where the mask is set, else ⟨Q q, K k⟩ / 8
      attn k  = exp (score k − max score) / Σ exp (score k' − max score)
      ctx     = Σ over k of attn k · V k
  and return (ctx, attn).  The kernel works on one (b, h) pair per grid point, in four chunks of 256 query rows, and
  scales the query by 1/8 BEFORE the product where the reference divides the product by 8 AFTER it.  That is the one
  place the two differ as formulas, and the two agree on all extended reals: a nonnegative real factor moves out of
  a finite sum whatever the terms (`RowMath.scaled_dot`), so no finiteness of the inputs is used.  Everything else is
  the same operations in another arrangement: changes of float format are the identity, a matrix product into a zero
  accumulator is the host's `dot_general`, the lane reductions are the host's reductions, the mask widened to 32-bit
  words and tested against zero is the mask, the reference's extra maximum against −∞ is the identity, and the
  [4, 16, ·, ·] ↔ [64, ·, ·] reshapes keep row-major positions.

  The road.  `RowMath`: one row as plain functions.  `ChunkValue`: the body's arithmetic on a chunk, entry by entry.
  `BlockValue`: the four pieces each output block is written in are one function of the block index.  `ArrayValue`:
  the 64 blocks cover each result array, which is therefore one function of the arrays the region finds.
  `KernelRun`: the reshapes around the region, and the kernel's run with both results named.  `RefValue`: the
  reference's results read at an index.  `Spec4`: the two functions both sides end at.  Here: the five claims.
  The ideal pass rewrote nothing, so `preserves` is `True`.
-/
import proofs.«133450_j24026047054463_2_alg».proof.Defs
import proofs.«133450_j24026047054463_2_alg».proof.Proof.Gen.Kernel
import proofs.«133450_j24026047054463_2_alg».proof.Proof.Gen.Kernel.Skeleton
import proofs.«133450_j24026047054463_2_alg».proof.Proof.Gen.Kernel.Launch
import proofs.«133450_j24026047054463_2_alg».proof.Proof.Gen.Kernel.Points
import proofs.«133450_j24026047054463_2_alg».proof.Proof.Gen.Kernel.Frame
import proofs.«133450_j24026047054463_2_alg».proof.Proof.Gen.KernelIdeal
import proofs.«133450_j24026047054463_2_alg».proof.Proof.Gen.KernelIdeal.Skeleton
import proofs.«133450_j24026047054463_2_alg».proof.Proof.Gen.KernelIdeal.Launch
import proofs.«133450_j24026047054463_2_alg».proof.Proof.Gen.KernelIdeal.Points
import proofs.«133450_j24026047054463_2_alg».proof.Proof.Gen.KernelIdeal.Frame
import proofs.«133450_j24026047054463_2_alg».proof.Proof.Gen.ReferenceIdeal
import proofs.«133450_j24026047054463_2_alg».proof.Proof.Gen.ReferenceIdeal.Run
import proofs.«133450_j24026047054463_2_alg».proof.Proof.Gen.ReferenceIdeal.Read
import proofs.«133450_j24026047054463_2_alg».proof.Proof.Gen.Pre_finite_inputs
import proofs.«133450_j24026047054463_2_alg».proof.Proof.KernelRun
import proofs.«133450_j24026047054463_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the four arguments both programs end with the context at `ctxOut` and the weights at
    `attnOut` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v15_eq _ _ _ _).trans (Cert.ReferenceIdeal.RefValue.ctx_eq _ _ _ _)
  · rw [(hagree c).1, (hagree c).2.1, (hagree c).2.2.2]
    exact (Cert.ReferenceIdeal.Read.val_main_v14_eq _ _ _).trans (Cert.ReferenceIdeal.RefValue.attn_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
